-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S500000 : Shape := ⟨1, ![500000]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500000 : S_.BroadcastsInDim S500000 (![] : Fin 0 → Fin S500000.rank)
  reducesTo_S500000_S_d0 : S500000.ReducesTo [0] S_
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S128x128 .f32) (main_arg7 : FVec F S128 .f32) (main_arg8 : FVec F S128x128 .f32) (main_arg9 : FVec F S128 .f32) (main_v13 : IVec S_ 1) (main_v16 : IVec S600000 1) : IVec S_ 1 :=
  let main_c_5 : IVec S_ 1 := constantI S_ 1 1#1
  let main_v17 : IVec S_ 1 := (fun x v => Host.reduce IntOp.andi x v reducesTo_S600000_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_v33

def fn {F : FTy → Type} [FloatOps F] (main_arg0 : FVec F S50000x128 .f32) (main_arg1 : FVec F S50000x128 .f32) (main_arg2 : IVec S2x500000 32) (main_arg3 : FVec F S500000 .f32) (main_arg4 : IVec S2x600000 32) (main_arg5 : FVec F S600000 .f32) (main_arg6 : FVec F S128x128 .f32) (main_arg7 : FVec F S128 .f32) (main_arg8 : FVec F S128x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S500000 .f32 := Host.absf main_arg3
  let main_cst_2 : FVec F S_ .f32 := constant S_ .f32 0x7F800000#32
  let main_v10 : FVec F S500000 .f32 := broadcastInDim S500000 ![] bcast_S_S500000 main_cst_2
  let main_v11 : IVec S500000 1 := cmpf .olt main_v9 main_v10
  let main_c_3 : IVec S_ 1 := constantI S_ 1 1#1
  let main_v12 : IVec S_ 1 := (fun x v => Host.reduce IntOp.andi x v reducesTo_S500000_S_d0 h_S_) main_v11 main_c_3
  let main_v13 : IVec S_ 1 := andi main_v8 main_v12
  let main_v14 : FVec F S600000 .f32 := Host.absf main_arg5
  let main_cst_4 : FVec F S_ .f32 := constant S_ .f32 0x7F800000#32
  let main_v15 : FVec F S600000 .f32 := broadcastInDim S600000 ![] bcast_S_S600000 main_cst_4
  let main_v16 : IVec S600000 1 := cmpf .olt main_v14 main_v15
  fn_part1 (F := F) main_arg6 main_arg7 main_arg8 main_arg9 main_v13 main_v16
-- ==== Kernel.lean ====
abbrev S50000x128 : Shape := ⟨2, ![50000, 128]⟩
abbrev S2x500000 : Shape := ⟨2, ![2, 500000]⟩
abbrev S500000 : Shape := ⟨1, ![500000]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S5000x128 : Shape := ⟨2, ![5000, 128]⟩
abbrev S1x500000 : Shape := ⟨2, ![1, 500000]⟩
abbrev S_ : Shape := ⟨0, ![]⟩
abbrev S50000 : Shape := ⟨1, ![50000]⟩
abbrev S500000x1 : Shape := ⟨2, ![500000, 1]⟩
abbrev S500000x128 : Shape := ⟨2, ![500000, 128]⟩
abbrev S50000x1 : Shape := ⟨2, ![50000, 1]⟩
abbrev S1x128 : Shape := ⟨2, ![1, 128]⟩
abbrev S1x600000 : Shape := ⟨2, ![1, 600000]⟩
abbrev S600000x1 : Shape := ⟨2, ![600000, 1]⟩
abbrev S600000x128 : Shape := ⟨2, ![600000, 128]⟩

abbrev nBuf : Space → Nat
  | .hbm => 139
  | .vmem => 20
  | .smem => 0
  | _ => 0

abbrev hbmTy0_0 (i : Nat) : BufTy := match i % 128 with
  | 0 => ⟨S50000x128, .f32⟩
  | 1 => ⟨S50000x128, .f32⟩
  | 2 => ⟨S2x500000, .i32⟩
  | 3 => ⟨S500000, .f32⟩
  | 4 => ⟨S2x600000, .i32⟩
  | 5 => ⟨S600000, .f32⟩
  | 6 => ⟨S128x128, .f32⟩
  | 7 => ⟨S128, .f32⟩
  | 8 => ⟨S128x128, .f32⟩
  | 9 => ⟨S128, .f32⟩
  | 10 => ⟨S50000x128, .f32⟩
  | 11 => ⟨S50000x128, .f32⟩
  | 12 => ⟨S1x500000, .i32⟩
  | 13 => ⟨S500000, .i32⟩
  | 14 => ⟨S1x500000, .i32⟩
  | 15 => ⟨S500000, .i32⟩
  | 16 => ⟨S_, .f32⟩
  | 17 => ⟨S50000, .f32⟩
  | 18 => ⟨S500000x1, .i32⟩
  | 19 => ⟨S50000, .f32⟩
  | 20 => ⟨S_, .f32⟩
  | 21 => ⟨S50000, .f32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S500000, .i32⟩
  | 33 => ⟨S500000, .i1⟩
  | 34 => ⟨S_, .i32⟩
  | 35 => ⟨S500000, .i32⟩
  | 36 => ⟨S500000, .i32⟩
  | 37 => ⟨S500000, .i32⟩
  | 38 => ⟨S500000x1, .i32⟩
  | 39 => ⟨S500000, .f32⟩
  | 40 => ⟨S500000, .f32⟩
  | 41 => ⟨S_, .i32⟩
  | 42 => ⟨S500000, .i32⟩
  | 43 => ⟨S500000, .i1⟩
  | 44 => ⟨S_, .i32⟩
  | 45 => ⟨S500000, .i32⟩
  | 46 => ⟨S500000, .i32⟩
  | 47 => ⟨S500000, .i32⟩
  | 48 => ⟨S500000x1, .i32⟩
  | 49 => ⟨S500000, .f32⟩
  | 50 => ⟨S500000, .f32⟩
  | 51 => ⟨S500000x1, .f32⟩
  | 52 => ⟨S_, .i32⟩
  | 53 => ⟨S500000, .i32⟩
  | 54 => ⟨S500000, .i1⟩
  | 55 => ⟨S_, .i32⟩
  | 56 => ⟨S500000, .i32⟩
  | 57 => ⟨S500000, .i32⟩
  | 58 => ⟨S500000, .i32⟩
  | 59 => ⟨S500000x1, .i32⟩
  | 60 => ⟨S500000x128, .f32⟩
  | 61 => ⟨S500000x128, .f32⟩
  | 62 => ⟨S500000x128, .f32⟩
  | 63 => ⟨S_, .f32⟩
  | 64 => ⟨S50000x128, .f32⟩
  | 65 => ⟨S500000x1, .i32⟩
  | 66 => ⟨S50000x128, .f32⟩
  | 67 => ⟨S50000, .f32⟩
  | 68 => ⟨S50000x1, .f32⟩
  | 69 => ⟨S50000x128, .f32⟩
  | 70 => ⟨S50000x128, .f32⟩
  | 71 => ⟨S50000x128, .f32⟩
  | 72 => ⟨S1x128, .f32⟩
  | 73 => ⟨S50000x128, .f32⟩
  | 74 => ⟨S50000x128, .f32⟩
  | 75 => ⟨S1x600000, .i32⟩
  | 76 => ⟨S600000, .i32⟩
  | 77 => ⟨S1x600000, .i32⟩
  | 78 => ⟨S600000, .i32⟩
  | 79 => ⟨S_, .f32⟩
  | 80 => ⟨S50000, .f32⟩
  | 81 => ⟨S600000x1, .i32⟩
  | 82 => ⟨S50000, .f32⟩
  | 83 => ⟨S_, .f32⟩
  | 84 => ⟨S50000, .f32⟩
  | 85 => ⟨S50000, .f32⟩
  | 86 => ⟨S_, .f32⟩
  | 87 => ⟨S50000, .f32⟩
  | 88 => ⟨S50000, .i1⟩
  | 89 => ⟨S50000, .f32⟩
  | 90 => ⟨S_, .f32⟩
  | 91 => ⟨S_, .f32⟩
  | 92 => ⟨S50000, .f32⟩
  | 93 => ⟨S50000, .f32⟩
  | 94 => ⟨S_, .i32⟩
  | 95 => ⟨S600000, .i32⟩
  | 96 => ⟨S600000, .i1⟩
  | 97 => ⟨S_, .i32⟩
  | 98 => ⟨S600000, .i32⟩
  | 99 => ⟨S600000, .i32⟩
  | 100 => ⟨S600000, .i32⟩
  | 101 => ⟨S600000x1, .i32⟩
  | 102 => ⟨S600000, .f32⟩
  | 103 => ⟨S600000, .f32⟩
  | 104 => ⟨S_, .i32⟩
  | 105 => ⟨S600000, .i32⟩
  | 106 => ⟨S600000, .i1⟩
  | 107 => ⟨S_, .i32⟩
  | 108 => ⟨S600000, .i32⟩
  | 109 => ⟨S600000, .i32⟩
  | 110 => ⟨S600000, .i32⟩
  | 111 => ⟨S600000x1, .i32⟩
  | 112 => ⟨S600000, .f32⟩
  | 113 => ⟨S600000, .f32⟩
  | 114 => ⟨S600000x1, .f32⟩
  | 115 => ⟨S_, .i32⟩
  | 116 => ⟨S600000, .i32⟩
  | 117 => ⟨S600000, .i1⟩
  | 118 => ⟨S_, .i32⟩
  | 119 => ⟨S600000, .i32⟩
  | 120 => ⟨S600000, .i32⟩
  | 121 => ⟨S600000, .i32⟩
  | 122 => ⟨S600000x1, .i32⟩
  | 123 => ⟨S600000x128, .f32⟩
  | 124 => ⟨S600000x128, .f32⟩
  | 125 => ⟨S600000x128, .f32⟩
  | 126 => ⟨S_, .f32⟩
  | 127 => ⟨S50000x128, .f32⟩
  | _ => ⟨S50000x128, .f32⟩

abbrev hbmTy0_1 (i : Nat) : BufTy := match i % 128 with
  | 0 => ⟨S600000x1, .i32⟩
  | 1 => ⟨S50000x128, .f32⟩
  | 2 => ⟨S50000, .f32⟩
  | 3 => ⟨S50000x1, .f32⟩
  | 4 => ⟨S50000x128, .f32⟩
  | 5 => ⟨S50000x128, .f32⟩
  | 6 => ⟨S50000x128, .f32⟩
  | 7 => ⟨S1x128, .f32⟩
  | 8 => ⟨S50000x128, .f32⟩
  | 9 => ⟨S50000x128, .f32⟩
  | 10 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_9 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_v59 : Ref sig .tc := ⟨.hbm, 85, rfl⟩
abbrev main_cst_11 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_12 : Ref sig .tc := ⟨.hbm, 90, rfl⟩
abbrev main_call1_v0 : Ref sig .tc := ⟨.hbm, 91, rfl⟩
abbrev main_call1_v1 : Ref sig .tc := ⟨.hbm, 92, rfl⟩
abbrev main_v63 : Ref sig .tc := ⟨.hbm, 93, rfl⟩
abbrev main_c_13 : Ref sig .tc := ⟨.hbm, 94, rfl⟩
abbrev main_v64 : Ref sig .tc := ⟨.hbm, 95, rfl⟩
abbrev main_v65 : Ref sig .tc := ⟨.hbm, 96, rfl⟩
abbrev main_c_14 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_15 : Ref sig .tc := ⟨.hbm, 104, rfl⟩
abbrev main_v72 : Ref sig .tc := ⟨.hbm, 105, rfl⟩
abbrev main_v73 : Ref sig .tc := ⟨.hbm, 106, rfl⟩
abbrev main_c_16 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_c_17 : Ref sig .tc := ⟨.hbm, 115, rfl⟩
abbrev main_v81 : Ref sig .tc := ⟨.hbm, 116, rfl⟩
abbrev main_v82 : Ref sig .tc := ⟨.hbm, 117, rfl⟩
abbrev main_c_18 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_19 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S50000 : S_.BroadcastsInDim S50000 (![] : Fin 0 → Fin S50000.rank)
  bcast_S500000_S500000x1_0 : S500000.BroadcastsInDim S500000x1 (![0] : Fin 1 → Fin S500000x1.rank)
  bcast_S_S500000 : S_.BroadcastsInDim S500000 (![] : Fin 0 → Fin S500000.rank)
  bcast_S500000x1_S500000x128_0_1 : S500000x1.BroadcastsInDim S500000x128 (![0, 1] : Fin 2 → Fin S500000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  shapeCasts_S5000x128_S5000x128 : S5000x128.ShapeCasts S5000x128
  dot_S5000x128_S128x128_S5000x128_1_0_0_1_n_n_wf : DotDims.WF S5000x128 S128x128 S5000x128 [1] [0] [0] [1] [] []
  scatter_S50000_S500000x1_S500000_n_0_0_1_wf : ScatterDims.WF S50000 S500000x1 S500000 [] [0] [0] 1
  gather_S50000_S500000x1_S500000_n_0_n_n_0_1_1_wf : GatherDims.WF S50000 S500000x1 S500000 [] [0] [] [0] [] 1 ![1]
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v100) S5000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v101) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S500000 : Shape := ⟨1, ![500000]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S1x500000 : Shape := ⟨2, ![1, 500000]⟩
abbrev S_ : Shape := ⟨0, ![]⟩
abbrev S50000 : Shape := ⟨1, ![50000]⟩
abbrev S500000x1 : Shape := ⟨2, ![500000, 1]⟩
abbrev S500000x128 : Shape := ⟨2, ![500000, 128]⟩
abbrev S50000x1 : Shape := ⟨2, ![50000, 1]⟩
abbrev S1x128 : Shape := ⟨2, ![1, 128]⟩
abbrev S1x600000 : Shape := ⟨2, ![1, 600000]⟩
abbrev S600000x1 : Shape := ⟨2, ![600000, 1]⟩
abbrev S600000x128 : Shape := ⟨2, ![600000, 128]⟩

abbrev nBuf : Space → Nat
  | .hbm => 160
  | .vmem => 0
  | .smem => 0
  | _ => 0

abbrev hbmTy0_0 (i : Nat) : BufTy := match i % 128 with
  | 0 => ⟨S50000x128, .f32⟩
  | 1 => ⟨S50000x128, .f32⟩
  | 2 => ⟨S2x500000, .i32⟩
  | 3 => ⟨S500000, .f32⟩
  | 4 => ⟨S2x600000, .i32⟩
  | 5 => ⟨S600000, .f32⟩
  | 6 => ⟨S128x128, .f32⟩
  | 7 => ⟨S128, .f32⟩
  | 8 => ⟨S128x128, .f32⟩
  | 9 => ⟨S128, .f32⟩
  | 10 => ⟨S50000x128, .f32⟩
  | 11 => ⟨S1x500000, .i32⟩
  | 12 => ⟨S500000, .i32⟩
  | 13 => ⟨S1x500000, .i32⟩
  | 14 => ⟨S500000, .i32⟩
  | 15 => ⟨S50000x128, .f32⟩
  | 16 => ⟨S_, .f32⟩
  | 17 => ⟨S50000, .f32⟩
  | 18 => ⟨S500000x1, .i32⟩
  | 19 => ⟨S50000, .f32⟩
  | 20 => ⟨S_, .f32⟩
  | 21 => ⟨S50000, .f32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S500000, .i32⟩
  | 33 => ⟨S500000, .i1⟩
  | 34 => ⟨S_, .i32⟩
  | 35 => ⟨S500000, .i32⟩
  | 36 => ⟨S500000, .i32⟩
  | 37 => ⟨S500000, .i32⟩
  | 38 => ⟨S500000x1, .i32⟩
  | 39 => ⟨S500000, .f32⟩
  | 40 => ⟨S500000, .f32⟩
  | 41 => ⟨S_, .i32⟩
  | 42 => ⟨S500000, .i32⟩
  | 43 => ⟨S500000, .i1⟩
  | 44 => ⟨S_, .i32⟩
  | 45 => ⟨S500000, .i32⟩
  | 46 => ⟨S500000, .i32⟩
  | 47 => ⟨S500000, .i32⟩
  | 48 => ⟨S500000x1, .i32⟩
  | 49 => ⟨S500000, .f32⟩
  | 50 => ⟨S500000, .f32⟩
  | 51 => ⟨S500000x1, .f32⟩
  | 52 => ⟨S_, .i32⟩
  | 53 => ⟨S500000, .i32⟩
  | 54 => ⟨S500000, .i1⟩
  | 55 => ⟨S_, .i32⟩
  | 56 => ⟨S500000, .i32⟩
  | 57 => ⟨S500000, .i32⟩
  | 58 => ⟨S500000, .i32⟩
  | 59 => ⟨S500000x1, .i32⟩
  | 60 => ⟨S500000x128, .f32⟩
  | 61 => ⟨S500000x128, .f32⟩
  | 62 => ⟨S500000x128, .f32⟩
  | 63 => ⟨S_, .f32⟩
  | 64 => ⟨S50000x128, .f32⟩
  | 65 => ⟨S500000x1, .i32⟩
  | 66 => ⟨S50000x128, .f32⟩
  | 67 => ⟨S50000, .f32⟩
  | 68 => ⟨S50000x1, .f32⟩
  | 69 => ⟨S50000x128, .f32⟩
  | 70 => ⟨S50000x128, .f32⟩
  | 71 => ⟨S50000x128, .f32⟩
  | 72 => ⟨S1x128, .f32⟩
  | 73 => ⟨S50000x128, .f32⟩
  | 74 => ⟨S50000x128, .f32⟩
  | 75 => ⟨S1x600000, .i32⟩
  | 76 => ⟨S600000, .i32⟩
  | 77 => ⟨S1x600000, .i32⟩
  | 78 => ⟨S600000, .i32⟩
  | 79 => ⟨S50000x128, .f32⟩
  | 80 => ⟨S_, .f32⟩
  | 81 => ⟨S50000, .f32⟩
  | 82 => ⟨S600000x1, .i32⟩
  | 83 => ⟨S50000, .f32⟩
  | 84 => ⟨S_, .f32⟩
  | 85 => ⟨S50000, .f32⟩
  | 86 => ⟨S50000, .f32⟩
  | 87 => ⟨S_, .f32⟩
  | 88 => ⟨S50000, .f32⟩
  | 89 => ⟨S50000, .i1⟩
  | 90 => ⟨S50000, .f32⟩
  | 91 => ⟨S_, .f32⟩
  | 92 => ⟨S_, .f32⟩
  | 93 => ⟨S50000, .f32⟩
  | 94 => ⟨S50000, .f32⟩
  | 95 => ⟨S_, .i32⟩
  | 96 => ⟨S600000, .i32⟩
  | 97 => ⟨S600000, .i1⟩
  | 98 => ⟨S_, .i32⟩
  | 99 => ⟨S600000, .i32⟩
  | 100 => ⟨S600000, .i32⟩
  | 101 => ⟨S600000, .i32⟩
  | 102 => ⟨S600000x1, .i32⟩
  | 103 => ⟨S600000, .f32⟩
  | 104 => ⟨S600000, .f32⟩
  | 105 => ⟨S_, .i32⟩
  | 106 => ⟨S600000, .i32⟩
  | 107 => ⟨S600000, .i1⟩
  | 108 => ⟨S_, .i32⟩
  | 109 => ⟨S600000, .i32⟩
  | 110 => ⟨S600000, .i32⟩
  | 111 => ⟨S600000, .i32⟩
  | 112 => ⟨S600000x1, .i32⟩
  | 113 => ⟨S600000, .f32⟩
  | 114 => ⟨S600000, .f32⟩
  | 115 => ⟨S600000x1, .f32⟩
  | 116 => ⟨S_, .i32⟩
  | 117 => ⟨S600000, .i32⟩
  | 118 => ⟨S600000, .i1⟩
  | 119 => ⟨S_, .i32⟩
  | 120 => ⟨S600000, .i32⟩
  | 121 => ⟨S600000, .i32⟩
  | 122 => ⟨S600000, .i32⟩
  | 123 => ⟨S600000x1, .i32⟩
  | 124 => ⟨S600000x128, .f32⟩
  | 125 => ⟨S600000x128, .f32⟩
  | 126 => ⟨S600000x128, .f32⟩
  | 127 => ⟨S_, .f32⟩
  | _ => ⟨S50000x128, .f32⟩

abbrev hbmTy0_1 (i : Nat) : BufTy := match i % 128 with
  | 0 => ⟨S50000x128, .f32⟩
  | 1 => ⟨S600000x1, .i32⟩
  | 2 => ⟨S50000x128, .f32⟩
  | 3 => ⟨S50000, .f32⟩
  | 4 => ⟨S50000x1, .f32⟩
  | 5 => ⟨S50000x128, .f32⟩
  | 6 => ⟨S50000x128, .f32⟩
  | 7 => ⟨S50000x128, .f32⟩
  | 8 => ⟨S1x128, .f32⟩
  | 9 => ⟨S50000x128, .f32⟩
  | 10 => ⟨S50000x128, .f32⟩
  | 11 => ⟨S50000x128, .f32⟩
  | 12 => ⟨S50000x128, .f32⟩
  | 13 => ⟨S50000x128, .f32⟩
  | 14 => ⟨S_, .f32⟩
  | 15 => ⟨S50000x128, .f32⟩
  | 16 => ⟨S50000x128, .f32⟩
  | 17 => ⟨S_, .f32⟩
  | 18 => ⟨S50000x128, .f32⟩
  | 19 => ⟨S50000x128, .f32⟩
  | 20 => ⟨S_, .f32⟩
  | 21 => ⟨S50000x128, .f32⟩
  | 22 => ⟨S50000x128, .f32⟩
  | 23 => ⟨S50000x128, .f32⟩
  | 24 => ⟨S_, .f32⟩
  | 25 => ⟨S50000x128, .f32⟩
  | 26 => ⟨S50000x128, .f32⟩
  | 27 => ⟨S_, .f32⟩
  | 28 => ⟨S50000x128, .f32⟩
  | 29 => ⟨S50000x128, .f32⟩
  | 30 => ⟨S50000x128, .f32⟩
  | 31 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_9 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_10 : Ref sig .tc := ⟨.hbm, 84, rfl⟩
abbrev main_v60 : Ref sig .tc := ⟨.hbm, 85, rfl⟩
abbrev main_v61 : Ref sig .tc := ⟨.hbm, 86, rfl⟩
abbrev main_cst_11 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_12 : Ref sig .tc := ⟨.hbm, 91, rfl⟩
abbrev main_call1_v0 : Ref sig .tc := ⟨.hbm, 92, rfl⟩
abbrev main_call1_v1 : Ref sig .tc := ⟨.hbm, 93, rfl⟩
abbrev main_v65 : Ref sig .tc := ⟨.hbm, 94, rfl⟩
abbrev main_c_13 : Ref sig .tc := ⟨.hbm, 95, rfl⟩
abbrev main_v66 : Ref sig .tc := ⟨.hbm, 96, rfl⟩
abbrev main_v67 : Ref sig .tc := ⟨.hbm, 97, rfl⟩
abbrev main_c_14 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_15 : Ref sig .tc := ⟨.hbm, 105, rfl⟩
abbrev main_v74 : Ref sig .tc := ⟨.hbm, 106, rfl⟩
abbrev main_v75 : Ref sig .tc := ⟨.hbm, 107, rfl⟩
abbrev main_c_16 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_c_17 : Ref sig .tc := ⟨.hbm, 116, rfl⟩
abbrev main_v83 : Ref sig .tc := ⟨.hbm, 117, rfl⟩
abbrev main_v84 : Ref sig .tc := ⟨.hbm, 118, rfl⟩
abbrev main_c_18 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_19 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_cst_20 : Ref sig .tc := ⟨.hbm, 142, rfl⟩
abbrev main_v106 : Ref sig .tc := ⟨.hbm, 143, rfl⟩
abbrev main_v107 : Ref sig .tc := ⟨.hbm, 144, rfl⟩
abbrev main_cst_21 : Ref sig .tc := ⟨.hbm, 145, rfl⟩
abbrev main_v108 : Ref sig .tc := ⟨.hbm, 146, rfl⟩
abbrev main_v109 : Ref sig .tc := ⟨.hbm, 147, rfl⟩
abbrev main_cst_22 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_cst_23 : Ref sig .tc := ⟨.hbm, 152, rfl⟩
abbrev main_v113 : Ref sig .tc := ⟨.hbm, 153, rfl⟩
abbrev main_v114 : Ref sig .tc := ⟨.hbm, 154, rfl⟩
abbrev main_cst_24 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S50000 : S_.BroadcastsInDim S50000 (![] : Fin 0 → Fin S50000.rank)
  bcast_S500000_S500000x1_0 : S500000.BroadcastsInDim S500000x1 (![0] : Fin 1 → Fin S500000x1.rank)
  bcast_S_S500000 : S_.BroadcastsInDim S500000 (![] : Fin 0 → Fin S500000.rank)
  bcast_S500000x1_S500000x128_0_1 : S500000x1.BroadcastsInDim S500000x128 (![0, 1] : Fin 2 → Fin S500000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  dot_S50000x128_S128x128_S50000x128_1_0_0_1_n_n_wf : DotDims.WF S50000x128 S128x128 S50000x128 [1] [0] [0] [1] [] []
  scatter_S50000_S500000x1_S500000_n_0_0_1_wf : ScatterDims.WF S50000 S500000x1 S500000 [] [0] [0] 1
  gather_S50000_S500000x1_S500000_n_0_n_n_0_1_1_wf : GatherDims.WF S50000 S500000x1 S500000 [] [0] [] [0] [] 1 ![1]
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.Spec.lean ====
/-
  The mathematics the two programs share, stated over plain index types (no program is imported here).

  * `addMatmul a l W` is the product of the SUM of two row matrices with a weight matrix:
    entry (r, c) is  Σ_k (a r k + l r k) · W k c  on the extended reals. A `tpu.matmul` into the zero
    accumulator over one block of rows (`matmul_plain_zero_apply`) and jnp's `dot_general` over all the rows
    (`dotGeneral_add_eq`) are both this sum: the only law used is `0 + x = x`, which holds at the infinities too.
  * `gate a l xl xg` is the gating mix, entry by entry:
    2·a·σ(xl + xg) + 2·l·(1 − σ(xl + xg)),  σ the logistic function. The kernel applies the one operation
    `logistic`; jnp on the host spells 1 / (1 + e^(−x)); at the ideal values these are one function
    (`Ideal.logistic x` IS `div 1 (1 + exp (−x))`), so the two spellings agree by unfolding.
-/
import Idealize.ShloMosaic.PureOps.Ideal
import Idealize.ShloMosaic.PureOps.Ideal.Laws
import Idealize.ShloMosaic.Lib.ValueIdx
import Idealize.ShloMosaic.Lib.StackMember

open scoped BigOperators

noncomputable section

namespace Cert.GcnGate

open Idealize.ShloMosaic Idealize.ShloMosaic.ValueIdx

/-! ## The product of a sum of two matrices with a weight matrix -/

/-- Entry (r, c) of (a + l)·W: the sum over the contracted coordinate k of (a r k + l r k) · W k c. -/
def addMatmul {m k n : Nat} (a l : FVec Ideal ⟨2, ![m, k]⟩ .f32) (W : FVec Ideal ⟨2, ![k, n]⟩ .f32) :
    FVec Ideal ⟨2, ![m, n]⟩ .f32 :=
  fun i => ∑ c : Fin k, (a (ix2 (i 0 : Fin m) c) + l (ix2 (i 0 : Fin m) c)) * W (ix2 c (i 1 : Fin n))

theorem addMatmul_apply {m k n : Nat} (a l : FVec Ideal ⟨2, ![m, k]⟩ .f32) (W : FVec Ideal ⟨2, ![k, n]⟩ .f32)
    (r : Fin m) (q : Fin n) :
    addMatmul a l W (ix2 r q) = ∑ c : Fin k, (a (ix2 r c) + l (ix2 r c)) * W (ix2 c q) := rfl

/-- A plain matrix product into the ZERO accumulator, read at an entry: the sum over the contracted coordinate of the
    products of the entries (the accumulator contributes `0 +`). -/
theorem matmul_plain_zero_apply {m k n : Nat} {φ₁ φ₂ : FTy} (prec : Option ContractPrecision)
    (A : FVec Ideal ⟨2, ![m, k]⟩ φ₁) (B : FVec Ideal ⟨2, ![k, n]⟩ φ₂) (r : Fin m) (q : Fin n) :
    matmul (DotDims.plain m k n) prec A B (constant ⟨2, ![m, n]⟩ .f32 0x00000000#32) (ix2 r q)
      = ∑ c : Fin k, A (ix2 r c) * B (ix2 c q) := by
  show FloatOps.matmul _ prec A B _ (ix2 r q) = _
  rw [Ideal.matmul_constant_zero_apply, ← Equiv.sum_comp (contrEquiv1 (DotDims.plain m k n) k rfl rfl).symm]
  refine Finset.sum_congr rfl fun c _ => ?_
  have c2 := contrEquiv1_symm_val (DotDims.plain m k n) k rfl rfl c
  have l2 : (DotDims.plain m k n).lhsIdx (ix2 r q) ((contrEquiv1 _ k rfl rfl).symm c) = ix2 r c := by
    funext ax; apply Fin.ext
    match ax with
    | ⟨0, _⟩ => simp [DotDims.lhsIdx, DotDims.plain]; rfl
    | ⟨1, _⟩ => simp [DotDims.lhsIdx, DotDims.plain]; exact c2
  have r2 : (DotDims.plain m k n).rhsIdx (ix2 r q) ((contrEquiv1 _ k rfl rfl).symm c) = ix2 c q := by
    funext ax; apply Fin.ext
    match ax with
    | ⟨0, _⟩ => simp [DotDims.rhsIdx, DotDims.plain]; exact c2
    | ⟨1, _⟩ => simp [DotDims.rhsIdx, DotDims.plain]; rfl
  rw [l2, r2]

/-- One block of rows: the matrix product of the sum of two row blocks with the weights, into the zero accumulator,
    read at an entry. -/
theorem matmul_add_zero_apply {m k n : Nat} (prec : Option ContractPrecision)
    (x0 x1 : FVec Ideal ⟨2, ![m, k]⟩ .f32) (W : FVec Ideal ⟨2, ![k, n]⟩ .f32) (r : Fin m) (q : Fin n) :
    matmul (DotDims.plain m k n) prec (addf x0 x1) W (constant ⟨2, ![m, n]⟩ .f32 0x00000000#32) (ix2 r q)
      = ∑ c : Fin k, (x0 (ix2 r c) + x1 (ix2 r c)) * W (ix2 c q) :=
  matmul_plain_zero_apply prec (addf x0 x1) W r q

/-- jnp's `dot_general` of the sum of two matrices with the weights IS `addMatmul`, entry by entry. -/
theorem dotGeneral_add_eq {m k n : Nat} (prec : Option ContractPrecision)
    (a l : FVec Ideal ⟨2, ![m, k]⟩ .f32) (W : FVec Ideal ⟨2, ![k, n]⟩ .f32) :
    Host.dotGeneral (DotDims.plain m k n) prec (addf a l) W = addMatmul a l W := by
  funext i
  obtain ⟨r, q, rfl⟩ : ∃ (r : Fin m) (q : Fin n), i = ix2 r q := ⟨i 0, i 1, eq_ix2 i⟩
  rw [StackMember.dotGeneral_plain_apply, addMatmul_apply]
  rfl

/-! ## The gating mix -/

/-- Entry by entry: 2·a·σ(xl + xg) + 2·l·(1 − σ(xl + xg)), with σ the logistic function; the literals are the
    binary words of 2.0 and 1.0 (never evaluated: both programs carry the same words). -/
def gate {s : Shape} (a l xl xg : FVec Ideal s .f32) : FVec Ideal s .f32 := fun i =>
  FloatOps.addf
    (FloatOps.mulf (FloatOps.mulf (Scalar.ofBits (F := Ideal) .f32 0x40000000#32) (a i)) (FloatOps.logistic (FloatOps.addf (xl i) (xg i))))
    (FloatOps.mulf (FloatOps.mulf (Scalar.ofBits (F := Ideal) .f32 0x40000000#32) (l i))
      (FloatOps.subf (Scalar.ofBits (F := Ideal) .f32 0x3F800000#32) (FloatOps.logistic (FloatOps.addf (xl i) (xg i)))))

end Cert.GcnGate

end
-- ==== Proof.Region0.lean ====
/-
  The matrix-product region, from blocks to the whole arrays. The region's grid has ten points; point t holds rows
  5000·t … 5000·t + 4999 of the two row arrays and of the two output arrays (all 128 columns), and the whole of each
  128 × 128 weight matrix. The body adds its two row blocks and multiplies the sum with each weight matrix into a zero
  accumulator, so an entry (p, q) of a written block is Σ_k (x0 p k + x1 p k) · W k q: row 5000·t + p of
  `addMatmul` of the whole arrays. The ten output blocks tile the 50000 rows; hence each output array ends holding
  `addMatmul` of the arrays as the region finds them. Stated at ANY contents `V` of the buffers at the region's entry.
-/
import proofs.«158276_j28243704939342_1_alg».proof.Proof.Gen.KernelIdeal.Frame
import proofs.«158276_j28243704939342_1_alg».proof.Proof.Spec
import Idealize.ShloMosaic.Lib.Pipeline.Value

set_option maxRecDepth 16384

open scoped BigOperators

noncomputable section

namespace Cert.KernelIdeal.Products

open Cert.KernelIdeal Cert.KernelIdeal.Gen Cert.GcnGate
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: a row window's block index at point t is (t, 0), a weight window's (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## Output window 4 (the product with the weights in window 2) -/

/-- The body's stored value at an entry of its block: the sum over k of (x0 p k + x1 p k) · W k q. -/
theorem body4_apply (x0 x1 : FVec Ideal S5000x128 .f32) (x2 : FVec Ideal S128x128 .f32) (p : Fin 5000) (q : Fin 128) :
    k0_pay2 (F := Ideal) x0 x1 x2 (ix2 p q) = ∑ k : Fin 128, (x0 (ix2 p k) + x1 (ix2 p k)) * x2 (ix2 k q) := by
  show matmul (F := Ideal) (DotDims.plain 5000 128 128) none (addf x0 x1) x2 (constant ⟨2, ![5000, 128]⟩ .f32 0x00000000#32) (ix2 p q) = _
  exact matmul_add_zero_apply none x0 x1 x2 p q

/-- What point t writes back is block t of (a + l)·W of the arrays as the region finds them. -/
theorem flushed4_eq (c : Dev nD) (t : Fin cfg0.N) :
    (dat0 V c).flushed 4 t = ((cfg0.win 4).blk t).view.read (Elt Ideal)
      (addMatmul (V c main_arg0) (V c main_arg1) (V c main_arg6)) := by
  show (cfg0.win 4).cut (grid0.coords t) ((dat0 V c).after 4 t) = _
  rw [after0_4]
  unfold out0_4
  rw [View.canon_unit_zero origin]
  simp only [View.ld_unit_zero (S := S5000x128) origin, View.ld_unit_zero (S := S128x128) origin]
  obtain ⟨a0, a1, b0, b1, c0, c1, d0, d1, e0, e1, f0, f1⟩ := block_index t
  have ht : t.val < 10 := (show t.val < grid0.N from t.isLt).trans_eq N_0
  funext j
  obtain ⟨p, q, rfl⟩ : ∃ (p : Fin 5000) (q : Fin 128), j = ix2 p q := ⟨j 0, j 1, eq_ix2 j⟩
  refine (body4_apply _ _ _ p q).trans ?_
  have hr : t.val * 5000 + p.val < 50000 := by have := p.isLt; omega
  have hE : ((cfg0.win 4).blk t).view.emb (ix2 p q) = ix2 (⟨t.val * 5000 + p.val, hr⟩ : Fin 50000) q := by
    funext a; apply Fin.ext
    match a with
    | ⟨0, _⟩ => show win0_4.index t (0 : Fin 2) * 5000 + 1 * p.val = t.val * 5000 + p.val; omega
    | ⟨1, _⟩ => show win0_4.index t (1 : Fin 2) * 128 + 1 * q.val = q.val; omega
  have r0 : ∀ k : Fin 128, iblk0 V c 0 t (ix2 p k)
      = (V c main_arg0 : FVec Ideal S50000x128 .f32) (ix2 (⟨t.val * 5000 + p.val, hr⟩ : Fin 50000) k) := fun k => by
    have h : ((cfg0.win 0).blk t).view.emb (ix2 p k) = ix2 (⟨t.val * 5000 + p.val, hr⟩ : Fin 50000) k := by
      funext a; apply Fin.ext
      match a with
      | ⟨0, _⟩ => show win0_0.index t (0 : Fin 2) * 5000 + 1 * p.val = t.val * 5000 + p.val; omega
      | ⟨1, _⟩ => show win0_0.index t (1 : Fin 2) * 128 + 1 * k.val = k.val; omega
    show (V c main_arg0 : FVec Ideal S50000x128 .f32) (((cfg0.win 0).blk t).view.emb (ix2 p k)) = _
    rw [h]
  have r1 : ∀ k : Fin 128, iblk0 V c 1 t (ix2 p k)
      = (V c main_arg1 : FVec Ideal S50000x128 .f32) (ix2 (⟨t.val * 5000 + p.val, hr⟩ : Fin 50000) k) := fun k => by
    have h : ((cfg0.win 1).blk t).view.emb (ix2 p k) = ix2 (⟨t.val * 5000 + p.val, hr⟩ : Fin 50000) k := by
      funext a; apply Fin.ext
      match a with
      | ⟨0, _⟩ => show win0_1.index t (0 : Fin 2) * 5000 + 1 * p.val = t.val * 5000 + p.val; omega
      | ⟨1, _⟩ => show win0_1.index t (1 : Fin 2) * 128 + 1 * k.val = k.val; omega
    show (V c main_arg1 : FVec Ideal S50000x128 .f32) (((cfg0.win 1).blk t).view.emb (ix2 p k)) = _
    rw [h]
  have r2 : ∀ k : Fin 128, iblk0 V c 2 t (ix2 k q) = (V c main_arg6 : FVec Ideal S128x128 .f32) (ix2 k q) := fun k => by
    have h : ((cfg0.win 2).blk t).view.emb (ix2 k q) = ix2 k q := by
      funext a; apply Fin.ext
      match a with
      | ⟨0, _⟩ => show win0_2.index t (0 : Fin 2) * 128 + 1 * k.val = k.val; omega
      | ⟨1, _⟩ => show win0_2.index t (1 : Fin 2) * 128 + 1 * q.val = q.val; omega
    show (V c main_arg6 : FVec Ideal S128x128 .f32) (((cfg0.win 2).blk t).view.emb (ix2 k q)) = _
    rw [h]
  show _ = addMatmul (V c main_arg0) (V c main_arg1) (V c main_arg6) (((cfg0.win 4).blk t).view.emb (ix2 p q))
  rw [hE, addMatmul_apply]
  exact Finset.sum_congr rfl fun k _ => by rw [r0 k, r1 k, r2 k]

/-- An index of the array is in point t's block iff each coordinate is in the block's range on its axis. -/
theorem mem_block4 (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v0_0).slice (win0_4.rect t)).set ↔ _
  rw [View.set_slice_whole, Rect.mem_set_unit]
  exact Iff.rfl

/-- Row r lies in the block of point r / 5000: the ten blocks cover the array. -/
theorem cover4 (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  let t : Fin cfg0.N := (⟨(i 0).val / 5000, by rw [N_0]; omega⟩ : Fin grid0.N)
  have ht : t.val = (i 0).val / 5000 := rfl
  obtain ⟨a0, a1, b0, b1, c0, c1, d0, d1, e0, e1, f0, f1⟩ := block_index t
  refine ⟨t, flush0_4 t, ?_⟩
  rw [mem_block4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- The array after the region: (a + l)·W of the arrays the region reads. -/
theorem final4 (c : Dev nD) :
    (dat0 V c).arrAt 4 cfg0.N = addMatmul (V c main_arg0) (V c main_arg1) (V c main_arg6) :=
  (dat0 V c).arrAt_eq_of_cover 4 _ (fun t _ => flushed4_eq V c t) cover4

/-! ## Output window 5 (the product with the weights in window 3) -/

/-- The body's stored value at an entry of its block: the sum over k of (x0 p k + x1 p k) · W k q. -/
theorem body5_apply (x0 x1 : FVec Ideal S5000x128 .f32) (x2 : FVec Ideal S128x128 .f32) (p : Fin 5000) (q : Fin 128) :
    k0_pay3 (F := Ideal) x0 x1 x2 (ix2 p q) = ∑ k : Fin 128, (x0 (ix2 p k) + x1 (ix2 p k)) * x2 (ix2 k q) := by
  show matmul (F := Ideal) (DotDims.plain 5000 128 128) none (addf x0 x1) x2 (constant ⟨2, ![5000, 128]⟩ .f32 0x00000000#32) (ix2 p q) = _
  exact matmul_add_zero_apply none x0 x1 x2 p q

/-- What point t writes back is block t of (a + l)·W of the arrays as the region finds them. -/
theorem flushed5_eq (c : Dev nD) (t : Fin cfg0.N) :
    (dat0 V c).flushed 5 t = ((cfg0.win 5).blk t).view.read (Elt Ideal)
      (addMatmul (V c main_arg0) (V c main_arg1) (V c main_arg8)) := by
  show (cfg0.win 5).cut (grid0.coords t) ((dat0 V c).after 5 t) = _
  rw [after0_5]
  unfold out0_5
  rw [View.canon_unit_zero origin]
  simp only [View.ld_unit_zero (S := S5000x128) origin, View.ld_unit_zero (S := S128x128) origin]
  obtain ⟨a0, a1, b0, b1, c0, c1, d0, d1, e0, e1, f0, f1⟩ := block_index t
  have ht : t.val < 10 := (show t.val < grid0.N from t.isLt).trans_eq N_0
  funext j
  obtain ⟨p, q, rfl⟩ : ∃ (p : Fin 5000) (q : Fin 128), j = ix2 p q := ⟨j 0, j 1, eq_ix2 j⟩
  refine (body5_apply _ _ _ p q).trans ?_
  have hr : t.val * 5000 + p.val < 50000 := by have := p.isLt; omega
  have hE : ((cfg0.win 5).blk t).view.emb (ix2 p q) = ix2 (⟨t.val * 5000 + p.val, hr⟩ : Fin 50000) q := by
    funext a; apply Fin.ext
    match a with
    | ⟨0, _⟩ => show win0_5.index t (0 : Fin 2) * 5000 + 1 * p.val = t.val * 5000 + p.val; omega
    | ⟨1, _⟩ => show win0_5.index t (1 : Fin 2) * 128 + 1 * q.val = q.val; omega
  have r0 : ∀ k : Fin 128, iblk0 V c 0 t (ix2 p k)
      = (V c main_arg0 : FVec Ideal S50000x128 .f32) (ix2 (⟨t.val * 5000 + p.val, hr⟩ : Fin 50000) k) := fun k => by
    have h : ((cfg0.win 0).blk t).view.emb (ix2 p k) = ix2 (⟨t.val * 5000 + p.val, hr⟩ : Fin 50000) k := by
      funext a; apply Fin.ext
      match a with
      | ⟨0, _⟩ => show win0_0.index t (0 : Fin 2) * 5000 + 1 * p.val = t.val * 5000 + p.val; omega
      | ⟨1, _⟩ => show win0_0.index t (1 : Fin 2) * 128 + 1 * k.val = k.val; omega
    show (V c main_arg0 : FVec Ideal S50000x128 .f32) (((cfg0.win 0).blk t).view.emb (ix2 p k)) = _
    rw [h]
  have r1 : ∀ k : Fin 128, iblk0 V c 1 t (ix2 p k)
      = (V c main_arg1 : FVec Ideal S50000x128 .f32) (ix2 (⟨t.val * 5000 + p.val, hr⟩ : Fin 50000) k) := fun k => by
    have h : ((cfg0.win 1).blk t).view.emb (ix2 p k) = ix2 (⟨t.val * 5000 + p.val, hr⟩ : Fin 50000) k := by
      funext a; apply Fin.ext
      match a with
      | ⟨0, _⟩ => show win0_1.index t (0 : Fin 2) * 5000 + 1 * p.val = t.val * 5000 + p.val; omega
      | ⟨1, _⟩ => show win0_1.index t (1 : Fin 2) * 128 + 1 * k.val = k.val; omega
    show (V c main_arg1 : FVec Ideal S50000x128 .f32) (((cfg0.win 1).blk t).view.emb (ix2 p k)) = _
    rw [h]
  have r2 : ∀ k : Fin 128, iblk0 V c 3 t (ix2 k q) = (V c main_arg8 : FVec Ideal S128x128 .f32) (ix2 k q) := fun k => by
    have h : ((cfg0.win 3).blk t).view.emb (ix2 k q) = ix2 k q := by
      funext a; apply Fin.ext
      match a with
      | ⟨0, _⟩ => show win0_3.index t (0 : Fin 2) * 128 + 1 * k.val = k.val; omega
      | ⟨1, _⟩ => show win0_3.index t (1 : Fin 2) * 128 + 1 * q.val = q.val; omega
    show (V c main_arg8 : FVec Ideal S128x128 .f32) (((cfg0.win 3).blk t).view.emb (ix2 k q)) = _
    rw [h]
  show _ = addMatmul (V c main_arg0) (V c main_arg1) (V c main_arg8) (((cfg0.win 5).blk t).view.emb (ix2 p q))
  rw [hE, addMatmul_apply]
  exact Finset.sum_congr rfl fun k _ => by rw [r0 k, r1 k, r2 k]

/-- An index of the array is in point t's block iff each coordinate is in the block's range on its axis. -/
theorem mem_block5 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v0_1).slice (win0_5.rect t)).set ↔ _
  rw [View.set_slice_whole, Rect.mem_set_unit]
  exact Iff.rfl

/-- Row r lies in the block of point r / 5000: the ten blocks cover the array. -/
theorem cover5 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  let t : Fin cfg0.N := (⟨(i 0).val / 5000, by rw [N_0]; omega⟩ : Fin grid0.N)
  have ht : t.val = (i 0).val / 5000 := rfl
  obtain ⟨a0, a1, b0, b1, c0, c1, d0, d1, e0, e1, f0, f1⟩ := block_index t
  refine ⟨t, flush0_5 t, ?_⟩
  rw [mem_block5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The array after the region: (a + l)·W of the arrays the region reads. -/
theorem final5 (c : Dev nD) :
    (dat0 V c).arrAt 5 cfg0.N = addMatmul (V c main_arg0) (V c main_arg1) (V c main_arg8) :=
  (dat0 V c).arrAt_eq_of_cover 5 _ (fun t _ => flushed5_eq V c t) cover5

end Cert.KernelIdeal.Products

end
-- ==== Proof.Region1.lean ====
/-
  The gating region, from blocks to the whole array. The region's grid has ten points; point t holds rows
  5000·t … 5000·t + 4999 of every one of its five arrays (all columns), so each input block a point reads lies exactly
  over the output block it writes, and the ten output blocks tile the 50000 rows. What a point writes back is the
  gating mix `gate` of its four input blocks, entry by entry; hence the result array ends holding `gate` of the four
  whole arrays as the region finds them. Stated at ANY contents `V` of the buffers at the region's entry.
-/
import proofs.«158276_j28243704939342_1_alg».proof.Proof.Gen.KernelIdeal.Frame
import proofs.«158276_j28243704939342_1_alg».proof.Proof.Spec
import Idealize.ShloMosaic.Lib.Pipeline.Value

set_option maxRecDepth 16384

noncomputable section

namespace Cert.KernelIdeal.Gating

open Cert.KernelIdeal Cert.KernelIdeal.Gen Cert.GcnGate
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's stored value is the gating mix of its four loaded blocks (a shape cast to the same shape is the
    identity). -/
theorem body_eq (act learn xl xg : Vec Ideal S5000x128 .f32) : k1_pay1 xl xg act learn = gate act learn xl xg := by
  unfold k1_pay1
  simp only [shapeCast_self]
  rfl

/-- The index maps over the grid: every window's block index at point t is (t, 0). -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- What point t writes back is block t of the gating mix of the four arrays as the region finds them. -/
theorem flushed_eq (c : Dev nD) (t : Fin cfg1.N) :
    (dat1 V c).flushed 4 t = ((cfg1.win 4).blk t).view.read (Elt Ideal)
      (gate (V c main_arg0) (V c main_arg1) (V c main_v50) (V c main_v100)) := by
  show (cfg1.win 4).cut (grid1.coords t) ((dat1 V c).after 4 t) = _
  rw [after1_4]
  unfold out1_4
  rw [View.canon_unit_zero origin]
  simp only [View.ld_unit_zero (S := S5000x128) origin]
  rw [body_eq]
  obtain ⟨a0, a1, b0, b1, c0, c1, d0, d1, e0, e1⟩ := block_index t
  funext j
  have h0 : ((cfg1.win 0).blk t).view.emb j = ((cfg1.win 4).blk t).view.emb j := by
    funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * (j 1).val = win1_4.index t (1 : Fin 2) * 128 + 1 * (j 1).val; omega
  have h1 : ((cfg1.win 1).blk t).view.emb j = ((cfg1.win 4).blk t).view.emb j := by
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 128 + 1 * (j 1).val = win1_4.index t (1 : Fin 2) * 128 + 1 * (j 1).val; omega
  have h2 : ((cfg1.win 2).blk t).view.emb j = ((cfg1.win 4).blk t).view.emb j := by
    funext a; apply Fin.ext
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 128 + 1 * (j 1).val = win1_4.index t (1 : Fin 2) * 128 + 1 * (j 1).val; omega
  have h3 : ((cfg1.win 3).blk t).view.emb j = ((cfg1.win 4).blk t).view.emb j := by
    funext a; apply Fin.ext
    match a with
    | ⟨0, _⟩ => show win1_3.index t (0 : Fin 2) * 5000 + 1 * (j 0).val = win1_4.index t (0 : Fin 2) * 5000 + 1 * (j 0).val; omega
    | ⟨1, _⟩ => show win1_3.index t (1 : Fin 2) * 128 + 1 * (j 1).val = win1_4.index t (1 : Fin 2) * 128 + 1 * (j 1).val; omega
  show gate (fun y => V c main_arg0 (((cfg1.win 0).blk t).view.emb y)) (fun y => V c main_arg1 (((cfg1.win 1).blk t).view.emb y))
      (fun y => V c main_v50 (((cfg1.win 2).blk t).view.emb y)) (fun y => V c main_v100 (((cfg1.win 3).blk t).view.emb y)) j
    = gate (V c main_arg0) (V c main_arg1) (V c main_v50) (V c main_v100) (((cfg1.win 4).blk t).view.emb j)
  simp only [gate]
  rw [h0, h1, h2, h3]

/-- An index of the array is in point t's block iff each coordinate is in the block's range on its axis. -/
theorem mem_block (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v101).slice (win1_4.rect t)).set ↔ _
  rw [View.set_slice_whole, Rect.mem_set_unit]
  exact Iff.rfl

/-- Row r lies in the block of point r / 5000: the ten blocks cover the array. -/
theorem cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  let t : Fin cfg1.N := (⟨(i 0).val / 5000, by rw [N_1]; omega⟩ : Fin grid1.N)
  have ht : t.val = (i 0).val / 5000 := rfl
  obtain ⟨a0, a1, b0, b1, c0, c1, d0, d1, e0, e1⟩ := block_index t
  refine ⟨t, flush1_4 t, ?_⟩
  rw [mem_block]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The result array after the region: the gating mix of the four arrays the region reads. -/
theorem final (c : Dev nD) :
    (dat1 V c).arrAt 4 cfg1.N = gate (V c main_arg0) (V c main_arg1) (V c main_v50) (V c main_v100) :=
  (dat1 V c).arrAt_eq_of_cover 4 _ (fun t _ => flushed_eq V c t) cover

end Cert.KernelIdeal.Gating

end
-- ==== Proof.Aggregate.lean ====
/-
  The graph aggregation both programs run on the host between the two kernels, as ONE function of the projected
  features `xw`.

  `aggLocal xw e w b` (500000 edges) and `aggGlobal xw e w b` (600000 edges) are the normalized-adjacency
  aggregation with self loops: with src = e[0], dst = e[1],
    deg  = (scatter-add of w at dst) + 1,     dinv = deg^(-1/2) where deg > 0, else 0,
    norm = dinv[src] · w · dinv[dst]          (a negative index wraps by +50000 before the gather),
    out  = (scatter-add of norm · xw[src] at dst) + (dinv · dinv) · xw + b.
  The certificate never opens this function: the kernel program applies it to its first kernel's two outputs, the
  reference to its two `dot_general`s, and the two are compared as the same function of equal arguments.
-/
import proofs.«158276_j28243704939342_1_alg».proof.KernelIdeal
import proofs.«158276_j28243704939342_1_alg».proof.Proof.Gen.KernelIdeal

noncomputable section

namespace Cert.KernelIdeal.HostChain

open Cert.KernelIdeal Cert.KernelIdeal.Gen
open Idealize.ShloMosaic

variable {F : FTy → Type} [FloatOps F]

/-- The aggregation over the 500000 local edges (see the header). -/
def aggLocal (xw : FVec F S50000x128 .f32) (e : IVec S2x500000 32) (w : FVec F S500000 .f32) (b : FVec F S128 .f32) :
    FVec F S50000x128 .f32 :=
  let src : IVec S500000 32 := shapeCast S500000 (extractStridedSlice S1x500000 ![0, 0] e slices_S2x500000_S1x500000_0_0) shapeCasts_S1x500000_S500000
  let dst : IVec S500000 32 := shapeCast S500000 (extractStridedSlice S1x500000 ![1, 0] e slices_S2x500000_S1x500000_1_0) shapeCasts_S1x500000_S500000
  let zeros : FVec F S50000 .f32 := broadcastInDim S50000 ![] bcast_S_S50000 (constant S_ .f32 0x00000000#32)
  let deg : FVec F S50000 .f32 :=
    addf (Host.scatterAdd scatter_S50000_S500000x1_S500000_n_0_0_1 zeros (broadcastInDim S500000x1 ![0] bcast_S500000_S500000x1_0 dst) w)
      (broadcastInDim S50000 ![] bcast_S_S50000 (constant S_ .f32 0x3F800000#32))
  let dinv : FVec F S50000 .f32 := select (cmpf .ogt deg zeros) (Host.rsqrt deg) zeros
  let wrap : IVec S500000 32 → IVec S500000x1 32 := fun i =>
    broadcastInDim S500000x1 ![0] bcast_S500000_S500000x1_0
      (select (cmpi .slt i (broadcastInDim S500000 ![] bcast_S_S500000 (constantI S_ 32 0#32)))
        (addi i (broadcastInDim S500000 ![] bcast_S_S500000 (constantI S_ 32 50000#32))) i)
  let norm : FVec F S500000 .f32 :=
    mulf (mulf (Host.gather gather_S50000_S500000x1_S500000_n_0_n_n_0_1_1 dinv (wrap src)) w)
      (Host.gather gather_S50000_S500000x1_S500000_n_0_n_n_0_1_1 dinv (wrap dst))
  let msg : FVec F S500000x128 .f32 :=
    mulf (broadcastInDim S500000x128 ![0, 1] bcast_S500000x1_S500000x128_0_1 (broadcastInDim S500000x1 ![0] bcast_S500000_S500000x1_0 norm))
      (Host.gather gather_S50000x128_S500000x1_S500000x128_1_0_n_n_0_1_1128 xw (wrap src))
  let agg : FVec F S50000x128 .f32 :=
    Host.scatterAdd scatter_S50000x128_S500000x1_S500000x128_1_0_0_1
      (broadcastInDim S50000x128 ![] bcast_S_S50000x128 (constant S_ .f32 0x00000000#32))
      (broadcastInDim S500000x1 ![0] bcast_S500000_S500000x1_0 dst) msg
  let selfLoop : FVec F S50000x128 .f32 :=
    mulf (broadcastInDim S50000x128 ![0, 1] bcast_S50000x1_S50000x128_0_1 (broadcastInDim S50000x1 ![0] bcast_S50000_S50000x1_0 (mulf dinv dinv))) xw
  addf (addf agg selfLoop) (broadcastInDim S50000x128 ![0, 1] bcast_S1x128_S50000x128_0_1 (broadcastInDim S1x128 ![1] bcast_S128_S1x128_1 b))

/-- The aggregation over the 600000 global edges (see the header). -/
def aggGlobal (xw : FVec F S50000x128 .f32) (e : IVec S2x600000 32) (w : FVec F S600000 .f32) (b : FVec F S128 .f32) :
    FVec F S50000x128 .f32 :=
  let src : IVec S600000 32 := shapeCast S600000 (extractStridedSlice S1x600000 ![0, 0] e slices_S2x600000_S1x600000_0_0) shapeCasts_S1x600000_S600000
  let dst : IVec S600000 32 := shapeCast S600000 (extractStridedSlice S1x600000 ![1, 0] e slices_S2x600000_S1x600000_1_0) shapeCasts_S1x600000_S600000
  let zeros : FVec F S50000 .f32 := broadcastInDim S50000 ![] bcast_S_S50000 (constant S_ .f32 0x00000000#32)
  let deg : FVec F S50000 .f32 :=
    addf (Host.scatterAdd scatter_S50000_S600000x1_S600000_n_0_0_1 zeros (broadcastInDim S600000x1 ![0] bcast_S600000_S600000x1_0 dst) w)
      (broadcastInDim S50000 ![] bcast_S_S50000 (constant S_ .f32 0x3F800000#32))
  let dinv : FVec F S50000 .f32 := select (cmpf .ogt deg zeros) (Host.rsqrt deg) zeros
  let wrap : IVec S600000 32 → IVec S600000x1 32 := fun i =>
    broadcastInDim S600000x1 ![0] bcast_S600000_S600000x1_0
      (select (cmpi .slt i (broadcastInDim S600000 ![] bcast_S_S600000 (constantI S_ 32 0#32)))
        (addi i (broadcastInDim S600000 ![] bcast_S_S600000 (constantI S_ 32 50000#32))) i)
  let norm : FVec F S600000 .f32 :=
    mulf (mulf (Host.gather gather_S50000_S600000x1_S600000_n_0_n_n_0_1_1 dinv (wrap src)) w)
      (Host.gather gather_S50000_S600000x1_S600000_n_0_n_n_0_1_1 dinv (wrap dst))
  let msg : FVec F S600000x128 .f32 :=
    mulf (broadcastInDim S600000x128 ![0, 1] bcast_S600000x1_S600000x128_0_1 (broadcastInDim S600000x1 ![0] bcast_S600000_S600000x1_0 norm))
      (Host.gather gather_S50000x128_S600000x1_S600000x128_1_0_n_n_0_1_1128 xw (wrap src))
  let agg : FVec F S50000x128 .f32 :=
    Host.scatterAdd scatter_S50000x128_S600000x1_S600000x128_1_0_0_1
      (broadcastInDim S50000x128 ![] bcast_S_S50000x128 (constant S_ .f32 0x00000000#32))
      (broadcastInDim S600000x1 ![0] bcast_S600000_S600000x1_0 dst) msg
  let selfLoop : FVec F S50000x128 .f32 :=
    mulf (broadcastInDim S50000x128 ![0, 1] bcast_S50000x1_S50000x128_0_1 (broadcastInDim S50000x1 ![0] bcast_S50000_S50000x1_0 (mulf dinv dinv))) xw
  addf (addf agg selfLoop) (broadcastInDim S50000x128 ![0, 1] bcast_S1x128_S50000x128_0_1 (broadcastInDim S1x128 ![1] bcast_S128_S1x128_1 b))

end Cert.KernelIdeal.HostChain

end
-- ==== Proof.HostChain.lean ====
/-
  What the kernel program's buffers hold when the gating region is entered: the host operations between the two
  kernels, read back in one pass from the first region's exit contents, are the aggregation `aggLocal` /
  `aggGlobal` of the first kernel's two outputs and of the launch arrays.
-/
import proofs.«158276_j28243704939342_1_alg».proof.Proof.Aggregate
import proofs.«158276_j28243704939342_1_alg».proof.Proof.Gen.KernelIdeal.Frame
import Idealize.ShloMosaic.Lib.StableHlo.Run

set_option maxRecDepth 16384

noncomputable section

namespace Cert.KernelIdeal.HostChain

open Cert.KernelIdeal Cert.KernelIdeal.Gen
open Idealize.ShloMosaic Idealize.ShloMosaic.TcCoe Idealize.SL.Sem Idealize.ShloMosaic.StableHlo

variable {F : FTy → Type} [FloatOps F]

variable (m : (ℓ : Loc nD τ sig) → Buf (Elt F) ℓ) (ρ : Dev nD → PrngReg)

set_option maxHeartbeats 40000000 in
/-- When the gating region is entered, its third array holds the local aggregation of the first kernel's first output
    (read where the first region left it) and of the launch arrays. -/
theorem entry_local (c : Dev nD) :
    W6 m ρ c (Proc.devRef .tc main_v50)
      = aggLocal (W1 m ρ c (Proc.devRef .tc main_v0_0)) (W1 m ρ c (Proc.devRef .tc main_arg2))
          (W1 m ρ c (Proc.devRef .tc main_arg3)) (W1 m ρ c (Proc.devRef .tc main_arg7)) := by
  show StableHlo.after hostOps1_4 (StableHlo.after hostOps1_3 (StableHlo.after hostOps1_2 (StableHlo.after hostOps1_1
    (StableHlo.after hostOps1 (W1 m ρ c))))) (Proc.devRef .tc main_v50) = _
  generalize W1 m ρ c = X
  simp only [hostOps1, hostOps1_1, hostOps1_2, hostOps1_3, hostOps1_4]
  after_results_simp
  rfl

set_option maxHeartbeats 40000000 in
/-- … and its fourth array the global aggregation of the first kernel's second output. -/
theorem entry_global (c : Dev nD) :
    W6 m ρ c (Proc.devRef .tc main_v100)
      = aggGlobal (W1 m ρ c (Proc.devRef .tc main_v0_1)) (W1 m ρ c (Proc.devRef .tc main_arg4))
          (W1 m ρ c (Proc.devRef .tc main_arg5)) (W1 m ρ c (Proc.devRef .tc main_arg9)) := by
  show StableHlo.after hostOps1_4 (StableHlo.after hostOps1_3 (StableHlo.after hostOps1_2 (StableHlo.after hostOps1_1
    (StableHlo.after hostOps1 (W1 m ρ c))))) (Proc.devRef .tc main_v100) = _
  generalize W1 m ρ c = X
  simp only [hostOps1, hostOps1_1, hostOps1_2, hostOps1_3, hostOps1_4]
  after_results_simp
  rfl

end Cert.KernelIdeal.HostChain

end
-- ==== Proof.KernelValue.lean ====
/-
  The kernel program's result as the shared functions of the arguments. Its run ends with the result buffer at
  what the gating region leaves: the gating mix `gate` of the four arrays that region reads as it finds them —
  activity and learning unchanged since the launch, and the two aggregations the host computed from the first
  region's two outputs, which are `addMatmul` of activity, learning and a weight matrix.
-/
import proofs.«158276_j28243704939342_1_alg».proof.Proof.FrameResult
import proofs.«158276_j28243704939342_1_alg».proof.Proof.Region0
import proofs.«158276_j28243704939342_1_alg».proof.Proof.Region1
import proofs.«158276_j28243704939342_1_alg».proof.Proof.HostChain

set_option maxRecDepth 16384

noncomputable section

namespace Cert.KernelIdeal.KValue

open Cert.KernelIdeal Cert.KernelIdeal.Gen Cert.GcnGate Cert.KernelIdeal.HostChain
open Idealize.ShloMosaic Idealize.ShloMosaic.TcCoe Idealize.SL.Sem

variable (m : (ℓ : Loc nD τ sig) → Buf (Elt Ideal) ℓ) (ρ : Dev nD → PrngReg)

/-! ## After the first region -/

/-- Its first output array holds (activity + learning)·W_local. -/
theorem exit_xw_local (c : Dev nD) :
    W1 m ρ c (Proc.devRef .tc main_v0_0) = addMatmul (m ((c.tc : Thread nD τ).loc main_arg0)) (m ((c.tc : Thread nD τ).loc main_arg1)) (m ((c.tc : Thread nD τ).loc main_arg6)) :=
  (W1_arr m ρ c 4).trans (Products.final4 (V0 m ρ) c)

/-- Its second output array holds (activity + learning)·W_global. -/
theorem exit_xw_global (c : Dev nD) :
    W1 m ρ c (Proc.devRef .tc main_v0_1) = addMatmul (m ((c.tc : Thread nD τ).loc main_arg0)) (m ((c.tc : Thread nD τ).loc main_arg1)) (m ((c.tc : Thread nD τ).loc main_arg8)) :=
  (W1_arr m ρ c 5).trans (Products.final5 (V0 m ρ) c)

/-- An array the first region has no window on is as launched. -/
theorem exit_kept (c : Dev nD) (b : Ref sig .tc) (hb : ∀ w, Pipeline.arrRef spec0 w ≠ b) :
    W1 m ρ c (Proc.devRef .tc b) = m ((c.tc : Thread nD τ).loc b) :=
  W1_of_ne m ρ c b hb

/-! ## At the gating region's entry -/

theorem entry_activity (c : Dev nD) : V6 m ρ c main_arg0 = m ((c.tc : Thread nD τ).loc main_arg0) :=
  ((W7_arr m ρ c 0).trans (((dat1 (V6 m ρ) c).arrAt_in 0 rfl _).trans (A_eq1 (V6 m ρ) c 0))).symm.trans (W7_main_arg0 m ρ c)

theorem entry_learning (c : Dev nD) : V6 m ρ c main_arg1 = m ((c.tc : Thread nD τ).loc main_arg1) :=
  ((W7_arr m ρ c 1).trans (((dat1 (V6 m ρ) c).arrAt_in 1 rfl _).trans (A_eq1 (V6 m ρ) c 1))).symm.trans (W7_main_arg1 m ρ c)

theorem entry_xl (c : Dev nD) :
    V6 m ρ c main_v50 = aggLocal (addMatmul (m ((c.tc : Thread nD τ).loc main_arg0)) (m ((c.tc : Thread nD τ).loc main_arg1)) (m ((c.tc : Thread nD τ).loc main_arg6))) (m ((c.tc : Thread nD τ).loc main_arg2)) (m ((c.tc : Thread nD τ).loc main_arg3)) (m ((c.tc : Thread nD τ).loc main_arg7)) := by
  refine (entry_local m ρ c).trans ?_
  rw [exit_xw_local m ρ c, exit_kept m ρ c main_arg2 (by decide), exit_kept m ρ c main_arg3 (by decide),
    exit_kept m ρ c main_arg7 (by decide)]

theorem entry_xg (c : Dev nD) :
    V6 m ρ c main_v100 = aggGlobal (addMatmul (m ((c.tc : Thread nD τ).loc main_arg0)) (m ((c.tc : Thread nD τ).loc main_arg1)) (m ((c.tc : Thread nD τ).loc main_arg8))) (m ((c.tc : Thread nD τ).loc main_arg4)) (m ((c.tc : Thread nD τ).loc main_arg5)) (m ((c.tc : Thread nD τ).loc main_arg9)) := by
  refine (entry_global m ρ c).trans ?_
  rw [exit_xw_global m ρ c, exit_kept m ρ c main_arg4 (by decide), exit_kept m ρ c main_arg5 (by decide),
    exit_kept m ρ c main_arg9 (by decide)]

/-! ## The result -/

/-- THE KERNEL PROGRAM'S RESULT: the gating mix of activity, learning and the two aggregations of (activity + learning)·W. -/
theorem result_eq (c : Dev nD) :
    W7 m ρ c (Proc.devRef .tc main_v101)
      = gate (m ((c.tc : Thread nD τ).loc main_arg0)) (m ((c.tc : Thread nD τ).loc main_arg1))
          (aggLocal (addMatmul (m ((c.tc : Thread nD τ).loc main_arg0)) (m ((c.tc : Thread nD τ).loc main_arg1)) (m ((c.tc : Thread nD τ).loc main_arg6))) (m ((c.tc : Thread nD τ).loc main_arg2)) (m ((c.tc : Thread nD τ).loc main_arg3)) (m ((c.tc : Thread nD τ).loc main_arg7)))
          (aggGlobal (addMatmul (m ((c.tc : Thread nD τ).loc main_arg0)) (m ((c.tc : Thread nD τ).loc main_arg1)) (m ((c.tc : Thread nD τ).loc main_arg8))) (m ((c.tc : Thread nD τ).loc main_arg4)) (m ((c.tc : Thread nD τ).loc main_arg5)) (m ((c.tc : Thread nD τ).loc main_arg9))) :=
  calc W7 m ρ c (Proc.devRef .tc main_v101)
      = (dat1 (V6 m ρ) c).arrAt 4 cfg1.N := W7_arr m ρ c 4
    _ = gate (V6 m ρ c main_arg0) (V6 m ρ c main_arg1) (V6 m ρ c main_v50) (V6 m ρ c main_v100) := Gating.final (V6 m ρ) c
    _ = _ := by rw [entry_activity m ρ c, entry_learning m ρ c, entry_xl m ρ c, entry_xg m ρ c]

/-- The run, re-posted: the result array at that function of the launch arrays, the arguments unchanged. -/
theorem run : θ_run defs (onTc (τ := τ) (main (F := Ideal))) ⟨m, fun _ => 0, ρ⟩ fun r => ∀ c : Dev nD,
      r.2.mem ((c.tc : Thread nD τ).loc main_v101)
        = gate (m ((c.tc : Thread nD τ).loc main_arg0)) (m ((c.tc : Thread nD τ).loc main_arg1))
          (aggLocal (addMatmul (m ((c.tc : Thread nD τ).loc main_arg0)) (m ((c.tc : Thread nD τ).loc main_arg1)) (m ((c.tc : Thread nD τ).loc main_arg6))) (m ((c.tc : Thread nD τ).loc main_arg2)) (m ((c.tc : Thread nD τ).loc main_arg3)) (m ((c.tc : Thread nD τ).loc main_arg7)))
          (aggGlobal (addMatmul (m ((c.tc : Thread nD τ).loc main_arg0)) (m ((c.tc : Thread nD τ).loc main_arg1)) (m ((c.tc : Thread nD τ).loc main_arg8))) (m ((c.tc : Thread nD τ).loc main_arg4)) (m ((c.tc : Thread nD τ).loc main_arg5)) (m ((c.tc : Thread nD τ).loc main_arg9)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c).1.trans (result_eq m ρ c), (h c).2⟩)
    (Cert.KernelIdeal.GenP.frame_result (F := Ideal) m ρ)

end Cert.KernelIdeal.KValue

end
-- ==== Proof.GateHost.lean ====
/-
  jnp's spelling of the gating mix on the host is `gate`. On the host the logistic function is spelt
  1 / (1 + e^(−x)) over splats of the literal 1.0; the word 0x3F800000 denotes the real 1, and
  `Ideal.logistic x` is by definition `div 1 (1 + exp (−x))`, so the quotient IS the logistic function.
  The splats of 2.0 and of the 1.0 that σ is subtracted from stay words: both programs carry the same ones.
-/
import proofs.«158276_j28243704939342_1_alg».proof.Proof.Spec

noncomputable section

namespace Cert.GcnGate

open Idealize.ShloMosaic

/-- The word of `1.0` denotes the real 1. -/
theorem ofBits_one : Ideal.ofBits .f32 0x3F800000#32 = 1 := by
  simp [Ideal.ofBits, Ideal.ieee, -EReal.coe_mul]; norm_num

/-- The host's quotient 1.0 / (1.0 + exp (−x)) is the logistic function. -/
theorem host_logistic (x : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf x)))
      = FloatOps.logistic x := by
  rw [show FloatOps.ofBits (F := Ideal) .f32 0x3F800000#32 = (1 : Ideal .f32) from ofBits_one]
  rfl

/-- The host's gating expression over splats `two` of 2.0 and `one` of 1.0 is `gate`, entry by entry. -/
theorem gate_host {s : Shape} (two one : FVec Ideal s .f32)
    (h2 : ∀ i, two i = FloatOps.ofBits (F := Ideal) .f32 0x40000000#32)
    (h1 : ∀ i, one i = FloatOps.ofBits (F := Ideal) .f32 0x3F800000#32)
    (a l xl xg : FVec Ideal s .f32) :
    addf (mulf (mulf two a) (Host.divf one (addf one (Host.exp (Host.negf (addf xl xg))))))
        (mulf (mulf two l) (subf one (Host.divf one (addf one (Host.exp (Host.negf (addf xl xg)))))))
      = gate a l xl xg := by
  funext i
  show FloatOps.addf
      (FloatOps.mulf (FloatOps.mulf (two i) (a i))
        (FloatOps.hostDivf (one i) (FloatOps.addf (one i) (FloatOps.hostUnary .exp (FloatOps.hostNegf (FloatOps.addf (xl i) (xg i)))))))
      (FloatOps.mulf (FloatOps.mulf (two i) (l i))
        (FloatOps.subf (one i)
          (FloatOps.hostDivf (one i) (FloatOps.addf (one i) (FloatOps.hostUnary .exp (FloatOps.hostNegf (FloatOps.addf (xl i) (xg i))))))))
    = _
  rw [h2 i, h1 i, host_logistic]
  rfl

end Cert.GcnGate

end
-- ==== Proof.RefSide.lean ====
/-
  The reference's result as the shared functions of the arguments. Its run ends with the result buffer at one long
  composed term; read in stages that term is: the host's gating expression of activity, learning and the two graph
  aggregations, each aggregation applied to a `dot_general` of (activity + learning) with a weight matrix. The
  aggregations are the SAME functions the kernel program applies (`aggLocal`, `aggGlobal`, never opened), a
  `dot_general` of a sum is `addMatmul`, and the host's gating expression is `gate`.
-/
import proofs.«158276_j28243704939342_1_alg».proof.Proof.Gen.ReferenceIdeal.Run
import proofs.«158276_j28243704939342_1_alg».proof.Proof.Aggregate
import proofs.«158276_j28243704939342_1_alg».proof.Proof.GateHost

set_option maxRecDepth 16384

noncomputable section

namespace Cert.ReferenceIdeal.RefValue

open Cert.ReferenceIdeal Cert.ReferenceIdeal.Gen Cert.ReferenceIdeal.Value Cert.GcnGate
open Idealize.ShloMosaic Idealize.ShloMosaic.TcCoe Idealize.SL.Sem
open Cert.KernelIdeal.HostChain (aggLocal aggGlobal)

/-- The splat of 2.0 and the splat of 1.0 over the result's shape. -/
abbrev two : FVec Ideal S50000x128 .f32 := broadcastInDim S50000x128 ![] bcast_S_S50000x128 (constant S_ .f32 0x40000000#32)
abbrev one : FVec Ideal S50000x128 .f32 := broadcastInDim S50000x128 ![] bcast_S_S50000x128 (constant S_ .f32 0x3F800000#32)

/-- The host's gating expression: 2·a·s + 2·l·(1 − s) with s = 1 / (1 + exp (−(xl + xg))). -/
def hostGate (a l xl xg : FVec Ideal S50000x128 .f32) : FVec Ideal S50000x128 .f32 :=
  addf (mulf (mulf two a) (Host.divf one (addf one (Host.exp (Host.negf (addf xl xg))))))
    (mulf (mulf two l) (subf one (Host.divf one (addf one (Host.exp (Host.negf (addf xl xg)))))))

variable (m : (ℓ : Loc nD τ sig) → Buf (Elt Ideal) ℓ)

set_option maxHeartbeats 40000000 in
/-- The run's result term, read in stages. -/
theorem result_stages (c : Dev nD) :
    res_main_v118 (F := Ideal) m c
      = hostGate (m ((c.tc : Thread nD τ).loc main_arg0)) (m ((c.tc : Thread nD τ).loc main_arg1))
          (aggLocal
            (Host.dotGeneral (φ₁ := .f32) (φ₂ := .f32) dot_S50000x128_S128x128_S50000x128_1_0_0_1_n_n none
              (addf (φ := .f32) (m ((c.tc : Thread nD τ).loc main_arg0)) (m ((c.tc : Thread nD τ).loc main_arg1))) (m ((c.tc : Thread nD τ).loc main_arg6)))
            (m ((c.tc : Thread nD τ).loc main_arg2)) (m ((c.tc : Thread nD τ).loc main_arg3)) (m ((c.tc : Thread nD τ).loc main_arg7)))
          (aggGlobal
            (Host.dotGeneral (φ₁ := .f32) (φ₂ := .f32) dot_S50000x128_S128x128_S50000x128_1_0_0_1_n_n none
              (addf (φ := .f32) (m ((c.tc : Thread nD τ).loc main_arg0)) (m ((c.tc : Thread nD τ).loc main_arg1))) (m ((c.tc : Thread nD τ).loc main_arg8)))
            (m ((c.tc : Thread nD τ).loc main_arg4)) (m ((c.tc : Thread nD τ).loc main_arg5)) (m ((c.tc : Thread nD τ).loc main_arg9))) := by
  unfold res_main_v118
  rfl

/-- The reference's `dot_general` of the sum of two matrices with a weight matrix is `addMatmul`. -/
theorem dot_eq (a l : FVec Ideal S50000x128 .f32) (W : FVec Ideal S128x128 .f32) :
    Host.dotGeneral dot_S50000x128_S128x128_S50000x128_1_0_0_1_n_n none (addf a l) W = addMatmul a l W :=
  dotGeneral_add_eq none a l W

/-- The host's gating expression is the gating mix. -/
theorem hostGate_eq (a l xl xg : FVec Ideal S50000x128 .f32) : hostGate a l xl xg = gate a l xl xg :=
  gate_host two one (fun _ => rfl) (fun _ => rfl) a l xl xg

/-- THE REFERENCE'S RESULT: the gating mix of activity, learning and the two aggregations of (activity + learning)·W. -/
theorem result_eq (c : Dev nD) :
    res_main_v118 (F := Ideal) m c
      = gate (m ((c.tc : Thread nD τ).loc main_arg0)) (m ((c.tc : Thread nD τ).loc main_arg1))
          (aggLocal
            (addMatmul (m ((c.tc : Thread nD τ).loc main_arg0)) (m ((c.tc : Thread nD τ).loc main_arg1)) (m ((c.tc : Thread nD τ).loc main_arg6)))
            (m ((c.tc : Thread nD τ).loc main_arg2)) (m ((c.tc : Thread nD τ).loc main_arg3)) (m ((c.tc : Thread nD τ).loc main_arg7)))
          (aggGlobal
            (addMatmul (m ((c.tc : Thread nD τ).loc main_arg0)) (m ((c.tc : Thread nD τ).loc main_arg1)) (m ((c.tc : Thread nD τ).loc main_arg8)))
            (m ((c.tc : Thread nD τ).loc main_arg4)) (m ((c.tc : Thread nD τ).loc main_arg5)) (m ((c.tc : Thread nD τ).loc main_arg9))) := by
  rw [result_stages, dot_eq, dot_eq, hostGate_eq]

end Cert.ReferenceIdeal.RefValue

end
-- ==== Proof.lean ====
/- The proof of `Cert.Claim` (proofs.«158276_j28243704939342_1_alg».proof.Defs).

   The programs. Both compute, for node features activity, learning : [50000, 128] and two weighted edge lists,
     xa = activity + learning,   xl = A_local(xa·W_local) + b_local,   xg = A_global(xa·W_global) + b_global,
     out = 2·activity·σ(xl + xg) + 2·learning·(1 − σ(xl + xg)),
   where A is the symmetric-normalized adjacency aggregation with self loops (scatter-adds and gathers on the host,
   identical text in both programs) and σ the logistic function. The kernel program forms xa·W_local and xa·W_global in
   one kernel over ten blocks of 5000 rows (a matrix product into a zero accumulator), aggregates on the host, and
   mixes in a second kernel over the same ten blocks; the reference does everything on the host, its products as
   `dot_general`, its σ spelt 1 / (1 + e^(−x)).

   Why they agree on the extended reals. (1) A matrix product into the zero accumulator and a `dot_general` are the
   same finite sum Σ_k (a r k + l r k)·W k c; the only law used is 0 + x = x, which holds at ±∞, so the precondition
   (finite inputs) is never opened. (2) The aggregation is one function applied to equal arguments on both sides and is
   never unfolded. (3) `Ideal.logistic x` is by definition `div 1 (1 + exp (−x))`, and the word of 1.0 denotes 1, so
   the two spellings of σ are one function; the words of 2.0 and of the 1.0 in (1 − σ) are the same on both sides.
   Blocks to arrays: the ten blocks of each output tile its 50000 rows, and each input block a point reads sits
   exactly over the output block it writes.

   Modules: Spec (the sum `addMatmul` and the mix `gate`), GateHost (the host's spelling of `gate`), Aggregate
   (`aggLocal`, `aggGlobal`), Region0 / Region1 (each kernel's output arrays as whole-array functions of the arrays
   it reads), HostChain (the host operations between the kernels, read back), FrameResult (the kernel program's
   run with the result array's contents in its post), KernelValue and RefSide (each program's result as
   `gate … (aggLocal (addMatmul …) …) (aggGlobal (addMatmul …) …)` of the arguments); assembled here.
   `preserves` is `True`: the ideal pass rewrote nothing. -/
import proofs.«158276_j28243704939342_1_alg».proof.Defs
import proofs.«158276_j28243704939342_1_alg».proof.Proof.Gen.Kernel
import proofs.«158276_j28243704939342_1_alg».proof.Proof.Gen.Kernel.Skeleton
import proofs.«158276_j28243704939342_1_alg».proof.Proof.Gen.Kernel.Launch
import proofs.«158276_j28243704939342_1_alg».proof.Proof.Gen.Kernel.Points
import proofs.«158276_j28243704939342_1_alg».proof.Proof.Gen.Kernel.Frame
import proofs.«158276_j28243704939342_1_alg».proof.Proof.Gen.KernelIdeal
import proofs.«158276_j28243704939342_1_alg».proof.Proof.Gen.KernelIdeal.Skeleton
import proofs.«158276_j28243704939342_1_alg».proof.Proof.Gen.KernelIdeal.Launch
import proofs.«158276_j28243704939342_1_alg».proof.Proof.Gen.KernelIdeal.Points
import proofs.«158276_j28243704939342_1_alg».proof.Proof.Gen.KernelIdeal.Frame
import proofs.«158276_j28243704939342_1_alg».proof.Proof.Gen.ReferenceIdeal
import proofs.«158276_j28243704939342_1_alg».proof.Proof.Gen.ReferenceIdeal.Run
import proofs.«158276_j28243704939342_1_alg».proof.Proof.Gen.Pre_finite_inputs
import proofs.«158276_j28243704939342_1_alg».proof.Proof.KernelValue
import proofs.«158276_j28243704939342_1_alg».proof.Proof.RefSide
import Idealize.ShloMosaic.Adequacy
import Idealize.ShloMosaic.Init

noncomputable section

namespace Cert.Proof

open Idealize.ShloMosaic Idealize.SL.Sem

/-- The word-level kernel program runs and leaves its arguments unchanged: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a host program: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the result array at `gate` of activity, learning and the two aggregations of
    (activity + learning)·W, the same function of arguments that agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.RefValue.result_eq m' c, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
